-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S2048x4096 : Shape := ⟨2, ![2048, 4096]⟩
abbrev S512x4096 : Shape := ⟨2, ![512, 4096]⟩
abbrev S512 : Shape := ⟨1, ![512]⟩
abbrev S2048x512 : Shape := ⟨2, ![2048, 512]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S512x4096, .bf16⟩
  | .local _ .vmem, ⟨3, _⟩ => ⟨S512x4096, .bf16⟩
  | .local _ .vmem, ⟨4, _⟩ => ⟨S512, .f32⟩
  | .local _ .vmem, ⟨5, _⟩ => ⟨S512, .f32⟩
  | .local _ .vmem, ⟨6, _⟩ => ⟨S2048x512, .f32⟩
  | .local _ .vmem, ⟨7, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)

variable [Facts₀]

def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_v0) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute when floats are read as exact extended reals: a dense layer whose weight
  matrix is replaced by the matrix of its signs,

      out[r, n] = Σ_k x[r, k] · sign(w[n, k]) + bias[n],      r < 8192, n < 4096, k < 4096,

  with x : 8192 × 4096, w : 4096 × 4096 and bias : 4096. Row `n` of `w` is the weight vector of output column `n`, so
  the contraction runs along the SECOND axis of both operands; no transpose is left in the formula. The sum is a
  finite sum in the extended reals, which is commutative and associative, so it does not matter in which order or
  in which tiles a program accumulates it.
-/
import Idealize.ShloMosaic.PureOps.Ideal
import Idealize.ShloMosaic.Lib.ValueIdx

noncomputable section

open scoped BigOperators

namespace Cert.SignLinear

open Idealize.ShloMosaic Idealize.ShloMosaic.ValueIdx

/-- `signLinear x w b` at `(r, n)`: the inner product of row `r` of `x` with the signs of row `n` of `w`, plus `b n`. -/
def signLinear (x : FVec Ideal ⟨2, ![8192, 4096]⟩ .f32) (w : FVec Ideal ⟨2, ![4096, 4096]⟩ .f32)
    (b : FVec Ideal ⟨1, ![4096]⟩ .f32) : FVec Ideal ⟨2, ![8192, 4096]⟩ .f32 :=
  fun i => (∑ k : Fin 4096, x (ix2 (i 0) k) * Ideal.sign (w (ix2 (i 1) k))) + b (ix1 (i 1))

/-- The same, unfolded at an index. -/
theorem signLinear_apply (x : FVec Ideal ⟨2, ![8192, 4096]⟩ .f32) (w : FVec Ideal ⟨2, ![4096, 4096]⟩ .f32)
    (b : FVec Ideal ⟨1, ![4096]⟩ .f32) (i : (⟨2, ![8192, 4096]⟩ : Shape).Idx) :
    signLinear x w b i = (∑ k : Fin 4096, x (ix2 (i 0) k) * Ideal.sign (w (ix2 (i 1) k))) + b (ix1 (i 1)) := rfl

/-- A TILE of `signLinear`. Let `a`, `s` and `v` be a 2048 × 4096 block, a 512 × 4096 block and a 512-entry block that
    hold, respectively, rows `r0 …` of `x`, the SIGNS of rows `n0 …` of `w`, and entries `n0 …` of `b` (all columns of
    each matrix). Then the inner product of row `p` of `a` with row `q` of `s`, plus entry `q` of `v`, is `signLinear x w b`
    at the array index `E = (r0 + p, n0 + q)`: the two sums have the same terms. -/
theorem tile_entry (x : FVec Ideal ⟨2, ![8192, 4096]⟩ .f32) (w : FVec Ideal ⟨2, ![4096, 4096]⟩ .f32) (b : FVec Ideal ⟨1, ![4096]⟩ .f32)
    (a : FVec Ideal ⟨2, ![2048, 4096]⟩ .bf16) (s : FVec Ideal ⟨2, ![512, 4096]⟩ .bf16) (v : FVec Ideal ⟨1, ![512]⟩ .f32) (r0 n0 : Nat)
    (ha : ∀ (y : (⟨2, ![2048, 4096]⟩ : Shape).Idx) (i : (⟨2, ![8192, 4096]⟩ : Shape).Idx),
      (i 0).val = r0 + (y 0).val → (i 1).val = (y 1).val → a y = x i)
    (hs : ∀ (y : (⟨2, ![512, 4096]⟩ : Shape).Idx) (i : (⟨2, ![4096, 4096]⟩ : Shape).Idx),
      (i 0).val = n0 + (y 0).val → (i 1).val = (y 1).val → s y = Ideal.sign (w i))
    (hv : ∀ (y : (⟨1, ![512]⟩ : Shape).Idx) (i : (⟨1, ![4096]⟩ : Shape).Idx), (i 0).val = n0 + (y 0).val → v y = b i)
    (p : Fin 2048) (q : Fin 512) (E : (⟨2, ![8192, 4096]⟩ : Shape).Idx)
    (h0 : (E 0).val = r0 + p.val) (h1 : (E 1).val = n0 + q.val) :
    (∑ k : Fin 4096, a (ix2 p k) * s (ix2 q k)) + v (ix1 q) = signLinear x w b E := by
  rw [signLinear_apply]
  refine congrArg₂ (· + ·) (Finset.sum_congr rfl fun k _ => congrArg₂ (· * ·) ?_ ?_) ?_
  · exact ha (ix2 p k) (ix2 (E 0) k) h0 rfl
  · exact hs (ix2 q k) (ix2 (E 1) k) h1 rfl
  · exact hv (ix1 q) (ix1 (E 1)) h1

end Cert.SignLinear

end
-- ==== Proof.RefValue.lean ====
/-
  The reference computes `signLinear`. Its program takes the signs of `w`, transposes them, contracts the second axis
  of `x` with the FIRST axis of the transposed matrix, and adds the bias broadcast along the rows. Read at an output
  index `(r, n)`: the contraction is Σ_k x[r, k] · (sign w)ᵀ[k, n], the transpose at `(k, n)` is the sign matrix at
  `(n, k)`, and the two broadcasts read the bias at `n`. That is `signLinear` term by term; no algebra is needed.
-/
import proofs.«100813_j9637906612611_2_alg».proof.Proof.Gen.ReferenceIdeal.Read
import proofs.«100813_j9637906612611_2_alg».proof.Proof.Spec

noncomputable section

open scoped BigOperators

namespace Cert.SignLinear

open Idealize.ShloMosaic Idealize.ShloMosaic.ValueIdx Cert.ReferenceIdeal Cert.ReferenceIdeal.Read

/-- The reference's result, as a function of its three arguments, is `signLinear` of them. -/
theorem reference_eq (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v5 (F := Ideal) x w b = signLinear x w b := by
  funext i
  rw [val_main_v5_apply, val_main_v2_apply, val_main_v4_apply, val_main_v3_apply, signLinear_apply]
  show (∑ k : Fin 4096, x (lidx_main_v2 i k) * val_main_v1 (F := Ideal) w (ridx_main_v2 i k)) + b (idx_main_v3 (idx_main_v4 i)) = _
  -- the bias: both broadcasts keep the column coordinate
  have eb : idx_main_v3 (idx_main_v4 i) = ix1 (i 1) := funext fun a => by match a with | ⟨0, _⟩ => rfl
  rw [eb]
  refine congrArg (· + b (ix1 (i 1))) (Finset.sum_congr rfl fun k _ => ?_)
  -- one term of the contraction: x at (r, k), and the transposed sign matrix at (k, n) is the sign matrix at (n, k)
  rw [val_main_v1_apply, val_main_v0_apply]
  have el : lidx_main_v2 i k = ix2 (i 0) k := funext fun a => by match a with | ⟨0, _⟩ => rfl | ⟨1, _⟩ => rfl
  have er : idx_main_v1 (ridx_main_v2 i k) = ix2 (i 1) k := funext fun a => by match a with | ⟨0, _⟩ => rfl | ⟨1, _⟩ => rfl
  rw [el, er]
  rfl

end Cert.SignLinear

end
-- ==== Proof.Payload.lean ====
/-
  What the kernel body stores, read at one element of its output tile. The body multiplies a 2048 × 4096 tile of `x`
  by a 512 × 4096 tile of the sign matrix, contracting the SECOND axis of both (so no transpose appears), starting
  from a zero accumulator, and adds the 512 bias entries of the tile's columns along every row. At tile position
  `(p, q)` this is

      Σ_k xtile[p, k] · wtile[q, k] + btile[q].

  Read exactly, the matrix product is the accumulator's value there (zero) plus the sum of the products over the
  contracted coordinate; the bias row is viewed as a 1 × 512 matrix and repeated down the 2048 rows, which at
  `(p, q)` reads entry `q`.
-/
import proofs.«100813_j9637906612611_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.SignLinear

open Idealize.ShloMosaic Idealize.ShloMosaic.ValueIdx Cert.KernelIdeal Cert.KernelIdeal.Gen

/-! ## The tile product's operand indices: output position `(p, q)` and contraction position `k` give `(p, k)` on the left
    and `(q, k)` on the right -/

theorem tile_lhs_row (j : S2048x512.Idx) (κ : dot_S2048x4096_S512x4096_S2048x512_1_1_0_0_n_n.contr.Idx) :
    (dot_S2048x4096_S512x4096_S2048x512_1_1_0_0_n_n.lhsIdx j κ 0).val = (j 0).val := by
  unfold DotDims.lhsIdx
  rw [dif_neg (show ¬(0 : Fin S2048x4096.rank) ∈ dot_S2048x4096_S512x4096_S2048x512_1_1_0_0_n_n.lhsBatch by decide),
    dif_pos (show (0 : Fin S2048x4096.rank) ∈ dot_S2048x4096_S512x4096_S2048x512_1_1_0_0_n_n.lhsNonContracting by decide)]
  rfl

theorem tile_lhs_col (j : S2048x512.Idx) (κ : dot_S2048x4096_S512x4096_S2048x512_1_1_0_0_n_n.contr.Idx) :
    (dot_S2048x4096_S512x4096_S2048x512_1_1_0_0_n_n.lhsIdx j κ 1).val = (κ ⟨0, by decide⟩).val :=
  dot_S2048x4096_S512x4096_S2048x512_1_1_0_0_n_n.lhsIdx_val_of_single rfl j κ

theorem tile_rhs_row (j : S2048x512.Idx) (κ : dot_S2048x4096_S512x4096_S2048x512_1_1_0_0_n_n.contr.Idx) :
    (dot_S2048x4096_S512x4096_S2048x512_1_1_0_0_n_n.rhsIdx j κ 0).val = (j 1).val := by
  unfold DotDims.rhsIdx
  rw [dif_neg (show ¬(0 : Fin S512x4096.rank) ∈ dot_S2048x4096_S512x4096_S2048x512_1_1_0_0_n_n.rhsBatch by decide),
    dif_pos (show (0 : Fin S512x4096.rank) ∈ dot_S2048x4096_S512x4096_S2048x512_1_1_0_0_n_n.rhsNonContracting by decide)]
  rfl

theorem tile_rhs_col (j : S2048x512.Idx) (κ : dot_S2048x4096_S512x4096_S2048x512_1_1_0_0_n_n.contr.Idx) :
    (dot_S2048x4096_S512x4096_S2048x512_1_1_0_0_n_n.rhsIdx j κ 1).val = (κ ⟨0, by decide⟩).val :=
  dot_S2048x4096_S512x4096_S2048x512_1_1_0_0_n_n.rhsIdx_val_of_single rfl j κ

/-- The tile product into a zero accumulator, at `(p, q)`: the sum over `k` of left `(p, k)` times right `(q, k)`. -/
theorem tile_product_apply (a : FVec Ideal S2048x4096 .bf16) (b : FVec Ideal S512x4096 .bf16) (p : Fin 2048) (q : Fin 512) :
    matmul dot_S2048x4096_S512x4096_S2048x512_1_1_0_0_n_n none a b (constant (F := Ideal) S2048x512 .f32 0x00000000#32) (ix2 p q)
      = ∑ k : Fin 4096, a (ix2 p k) * b (ix2 q k) := by
  simp only [matmul]
  rw [Ideal.matmul_constant_zero_apply,
    ← Equiv.sum_comp (contrEquiv1 dot_S2048x4096_S512x4096_S2048x512_1_1_0_0_n_n 4096 rfl rfl).symm]
  refine Finset.sum_congr rfl fun k _ => ?_
  have hk := contrEquiv1_symm_val dot_S2048x4096_S512x4096_S2048x512_1_1_0_0_n_n 4096 rfl rfl k
  have el : dot_S2048x4096_S512x4096_S2048x512_1_1_0_0_n_n.lhsIdx (ix2 p q)
      ((contrEquiv1 dot_S2048x4096_S512x4096_S2048x512_1_1_0_0_n_n 4096 rfl rfl).symm k) = ix2 p k :=
    funext fun d => Fin.ext (by
      match d with
      | ⟨0, _⟩ => exact tile_lhs_row _ _
      | ⟨1, _⟩ => exact (tile_lhs_col _ _).trans hk)
  have er : dot_S2048x4096_S512x4096_S2048x512_1_1_0_0_n_n.rhsIdx (ix2 p q)
      ((contrEquiv1 dot_S2048x4096_S512x4096_S2048x512_1_1_0_0_n_n 4096 rfl rfl).symm k) = ix2 q k :=
    funext fun d => Fin.ext (by
      match d with
      | ⟨0, _⟩ => exact tile_rhs_row _ _
      | ⟨1, _⟩ => exact (tile_rhs_col _ _).trans hk)
  rw [el, er]

/-- The bias tile, viewed as one row and repeated down the tile's rows, reads entry `q` at `(p, q)`. -/
theorem bias_rows_apply (v : FVec Ideal S512 .f32) (p : Fin 2048) (q : Fin 512) :
    broadcastTo S2048x512 (shapeCast S1x512 v shapeCasts_S512_S1x512) broadcasts_S1x512_S2048x512 (ix2 p q) = v (ix1 q) := by
  rw [broadcastTo_apply _ broadcasts_S1x512_S2048x512 (ix2 p q) (ix2 (⟨0, Nat.one_pos⟩ : Fin 1) q) (fun d => by
    match d with
    | ⟨0, _⟩ => show 0 = if (1 : Nat) = 1 then 0 else p.val; rw [if_pos rfl]
    | ⟨1, _⟩ => show q.val = if (512 : Nat) = 1 then 0 else q.val; rw [if_neg (by decide)])]
  refine shapeCast_apply v shapeCasts_S512_S1x512 _ (ix1 q) ?_
  rw [Shape.rowMajor_val_one, Shape.rowMajor_val_two]
  show q.val = 0 * 512 + q.val
  omega

/-- THE PAYLOAD at tile position `(p, q)`: Σ_k xtile[p, k] · wtile[q, k] + btile[q]. -/
theorem payload_apply (a : Vec Ideal S2048x4096 .bf16) (b : Vec Ideal S512x4096 .bf16) (v : Vec Ideal S512 .f32)
    (p : Fin 2048) (q : Fin 512) :
    k0_pay1 (F := Ideal) a b v (ix2 p q) = (∑ k : Fin 4096, a (ix2 p k) * b (ix2 q k)) + v (ix1 q) := by
  unfold k0_pay1
  show matmul dot_S2048x4096_S512x4096_S2048x512_1_1_0_0_n_n none (shapeCast S2048x4096 a shapeCasts_S2048x4096_S2048x4096)
        (shapeCast S512x4096 b shapeCasts_S512x4096_S512x4096) (constant (F := Ideal) S2048x512 .f32 0x00000000#32) (ix2 p q)
      + broadcastTo S2048x512 (shapeCast S1x512 v shapeCasts_S512_S1x512) broadcasts_S1x512_S2048x512 (ix2 p q) = _
  rw [shapeCast_self, shapeCast_self, tile_product_apply, bias_rows_apply]

end Cert.SignLinear

end
-- ==== Proof.KernelPoint.lean ====
/-
  One grid point of the kernel, read back to the argument arrays. Before the kernel is launched the program stages
  two operands: `x` in the narrower float format, and the SIGNS of `w` in that format; read exactly, a change of
  format keeps every value, so the staged arrays hold `x` and `sign w` entry by entry. The grid is 4 × 8: point
  `(a, b)` multiplies rows `2048·a …` of `x` by rows `512·b …` of the sign matrix (all 4096 columns of each) and adds
  bias entries `512·b …`, writing tile `(a, b)` of the 8192 × 4096 result. So the tile entry `(p, q)` of point `(a, b)`
  is `signLinear` at `(2048·a + p, 512·b + q)`: the same sum over `k`, term by term. This module reads each input block
  back to its argument array and records how the four windows move together; Proof/KernelValue.lean draws the conclusion.
-/
import proofs.«100813_j9637906612611_2_alg».proof.Proof.Gen.KernelIdeal.Frame
import proofs.«100813_j9637906612611_2_alg».proof.Proof.Spec
import Idealize.ShloMosaic.Lib.Pipeline.Value
import Idealize.ShloMosaic.Lib.StableHlo.Run
import Idealize.ShloMosaic.Lib.ValueIdx

noncomputable section

open scoped BigOperators

namespace Cert.SignLinear

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-! ## The staged operands as the kernel finds them -/

/-- The first staged operand is `x` with its format changed. -/
theorem staged_x (c : Dev nD) :
    (V m c main_v0 : S8192x4096.Idx → Elt Ideal .bf16) = truncf (F := Ideal) (s := S8192x4096) (φ := .f32) .bf16 (m ((c : Thread nD τ).loc main_arg0)) bitsLt_bf16_f32 := by
  dsimp only [Gen.V, Gen.hostOps0]; after_results

/-- The second staged operand is the sign matrix of `w` with its format changed. -/
theorem staged_w (c : Dev nD) :
    (V m c main_v2 : S4096x4096.Idx → Elt Ideal .bf16)
      = truncf (F := Ideal) (s := S4096x4096) (φ := .f32) .bf16 (Host.sign (F := Ideal) (s := S4096x4096) (φ := .f32) (m ((c : Thread nD τ).loc main_arg1))) bitsLt_bf16_f32 := by
  dsimp only [Gen.V, Gen.hostOps0]; after_results

/-- Entry by entry the first staged operand is `x`: the exact reading of a format change is the identity. -/
theorem staged_x_apply (c : Dev nD) (i : S8192x4096.Idx) :
    (V m c main_v0 : S8192x4096.Idx → Elt Ideal .bf16) i = (m ((c : Thread nD τ).loc main_arg0) : S8192x4096.Idx → Elt Ideal .f32) i := by
  rw [staged_x]; rfl

/-- Entry by entry the second staged operand is the sign of `w`. -/
theorem staged_w_apply (c : Dev nD) (i : S4096x4096.Idx) :
    (V m c main_v2 : S4096x4096.Idx → Elt Ideal .bf16) i
      = Ideal.sign ((m ((c : Thread nD τ).loc main_arg1) : S4096x4096.Idx → Elt Ideal .f32) i) := by
  rw [staged_w]; rfl

/-! ## The input blocks of a point, read back to the arguments

A block's entry `y` sits in the array at coordinate (block index × block extent + `y`) on every axis. -/

/-- The `x` block of point `t` at `y` is `x` at the array index `i` with those coordinates. -/
theorem x_block_apply (c : Dev nD) (t : Fin cfg0.N) (y : S2048x4096.Idx) (i : S8192x4096.Idx)
    (h0 : (i 0).val = win0_0.index t (0 : Fin 2) * 2048 + (y 0).val) (h1 : (i 1).val = win0_0.index t (1 : Fin 2) * 4096 + (y 1).val) :
    (iblk m c 0 t : Vec Ideal S2048x4096 .bf16) y = (m ((c : Thread nD τ).loc main_arg0) : S8192x4096.Idx → Elt Ideal .f32) i := by
  unfold iblk
  rw [View.read_apply]
  show (V m c main_v0 : S8192x4096.Idx → Elt Ideal .bf16) (((cfg0.win 0).blk t).view.emb y) = _
  rw [staged_x_apply]
  refine congrArg _ (funext fun a => Fin.ext ?_)
  match a with
  | ⟨0, _⟩ => show win0_0.index t (0 : Fin 2) * 2048 + 1 * (y 0).val = (i 0).val; omega
  | ⟨1, _⟩ => show win0_0.index t (1 : Fin 2) * 4096 + 1 * (y 1).val = (i 1).val; omega

/-- The weight block of point `t` at `y` is the sign of `w` at the array index `i` with those coordinates. -/
theorem w_block_apply (c : Dev nD) (t : Fin cfg0.N) (y : S512x4096.Idx) (i : S4096x4096.Idx)
    (h0 : (i 0).val = win0_1.index t (0 : Fin 2) * 512 + (y 0).val) (h1 : (i 1).val = win0_1.index t (1 : Fin 2) * 4096 + (y 1).val) :
    (iblk m c 1 t : Vec Ideal S512x4096 .bf16) y
      = Ideal.sign ((m ((c : Thread nD τ).loc main_arg1) : S4096x4096.Idx → Elt Ideal .f32) i) := by
  unfold iblk
  rw [View.read_apply]
  show (V m c main_v2 : S4096x4096.Idx → Elt Ideal .bf16) (((cfg0.win 1).blk t).view.emb y) = _
  rw [staged_w_apply]
  refine congrArg (fun j => Ideal.sign ((m ((c : Thread nD τ).loc main_arg1) : S4096x4096.Idx → Elt Ideal .f32) j)) (funext fun a => Fin.ext ?_)
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- The bias block of point `t` at `y` is the bias at the array index `i` with that coordinate. -/
theorem b_block_apply (c : Dev nD) (t : Fin cfg0.N) (y : S512.Idx) (i : S4096.Idx)
    (h0 : (i 0).val = win0_2.index t (0 : Fin 1) * 512 + (y 0).val) :
    (iblk m c 2 t : Vec Ideal S512 .f32) y = (m ((c : Thread nD τ).loc main_arg2) : S4096.Idx → Elt Ideal .f32) i := by
  unfold iblk
  rw [View.read_apply]
  show (V m c main_arg2 : S4096.Idx → Elt Ideal .f32) (((cfg0.win 2).blk t).view.emb y) = _
  rw [V_main_arg2]
  refine congrArg _ (funext fun a => Fin.ext ?_)
  match a with
  | ⟨0, _⟩ => show win0_2.index t (0 : Fin 1) * 512 + 1 * (y 0).val = (i 0).val; omega

/-! ## How the four windows move over the grid -/

/-- At every grid point: the `x` block follows the output tile's row index and spans all columns; the weight block
    follows the output tile's COLUMN index and spans all columns of `w`; the bias block follows the output tile's
    column index. Decided over the 32 points. -/
theorem window_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2) :=
  (by decide +kernel : ∀ t : Fin grid0.N, _)

end Cert.SignLinear

end
-- ==== Proof.KernelValue.lean ====
/-
  The kernel's result array is `signLinear` of the arguments. Each of the 32 grid points writes back one
  2048 × 512 tile, and what it writes is the body's stored value for the point's blocks; by the payload read at an
  entry and the point's blocks read back to the arguments, that tile is the corresponding tile of `signLinear`.
  The 4 × 8 tiles fill the 8192 × 4096 array — array index `(r, n)` lies in tile `(r / 2048, n / 512)` — so the whole
  array ends holding `signLinear`, and the run's post can be stated with that one function.
-/
import proofs.«100813_j9637906612611_2_alg».proof.Proof.Gen.KernelIdeal.Value
import proofs.«100813_j9637906612611_2_alg».proof.Proof.Payload
import proofs.«100813_j9637906612611_2_alg».proof.Proof.KernelPoint

noncomputable section

open scoped BigOperators

namespace Cert.SignLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem zero_offsets_two : (![0, 0] : Fin 2 → Nat) = fun _ => 0 := funext fun a => by fin_cases a <;> rfl
theorem zero_offsets_one : (![0] : Fin 1 → Nat) = fun _ => 0 := funext fun a => by fin_cases a; rfl

/-- WHAT POINT `t` WRITES BACK is tile `t` of `signLinear` of the arguments. -/
theorem flushed_tile (c : Dev nD) (t : Fin cfg0.N) :
    (dats m 0 c).flushed 3 t = ((cfg0.win 3).blk t).view.read (Elt Ideal)
      (signLinear (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets_two]
  simp only [View.ld_unit_zero (S := S2048x4096) zero_offsets_two, View.ld_unit_zero (S := S512x4096) zero_offsets_two,
    View.ld_unit_zero (S := S512) zero_offsets_one]
  funext j
  obtain ⟨p, q, rfl⟩ : ∃ (p : Fin 2048) (q : Fin 512), j = ix2 p q := ⟨j 0, j 1, eq_ix2 j⟩
  show k0_pay1 (F := Ideal) (iblk m c 0 t) (iblk m c 1 t) (iblk m c 2 t) (ix2 p q)
    = signLinear (m ((c : Thread nD τ).loc main_arg0)) (m ((c : Thread nD τ).loc main_arg1)) (m ((c : Thread nD τ).loc main_arg2))
        (((cfg0.win 3).blk t).view.emb (ix2 p q))
  refine (payload_apply (iblk m c 0 t) (iblk m c 1 t) (iblk m c 2 t) p q).trans ?_
  obtain ⟨e0, e1, e2, e3, e4⟩ := window_indices t
  refine tile_entry _ _ _ (iblk m c 0 t) (iblk m c 1 t) (iblk m c 2 t) (win0_3.index t (0 : Fin 2) * 2048) (win0_3.index t (1 : Fin 2) * 512)
    (fun y i h0 h1 => x_block_apply m c t y i (by omega) (by omega))
    (fun y i h0 h1 => w_block_apply m c t y i (by omega) (by omega))
    (fun y i h0 => b_block_apply m c t y i (by omega)) p q _ ?_ ?_
  · show win0_3.index t (0 : Fin 2) * 2048 + 1 * p.val = win0_3.index t (0 : Fin 2) * 2048 + p.val; omega
  · show win0_3.index t (1 : Fin 2) * 512 + 1 * q.val = win0_3.index t (1 : Fin 2) * 512 + q.val; omega

/-- An array index is in point `t`'s tile iff each coordinate is in the tile's range on its axis. -/
theorem mem_tile (t : Fin cfg0.N) (i : S8192x4096.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v3).slice (win0_3.rect t)).set ↔ _
  rw [View.set_slice_whole, Rect.mem_set_unit]
  exact Iff.rfl

/-- Every tile position of the 4 × 8 arrangement is some grid point's. Decided. -/
theorem tile_onto : ∀ (a : Fin 4) (b : Fin 8), ∃ t : Fin cfg0.N, win0_3.index t = ![a.val, b.val] :=
  (by decide +kernel : ∀ (a : Fin 4) (b : Fin 8), ∃ t : Fin grid0.N, win0_3.index t = ![a.val, b.val])

/-- THE COVER: index `(r, n)` lies in the tile of the point at position `(r / 2048, n / 512)`. -/
theorem tiles_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := tile_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- THE ARRAY after the run is `signLinear` of the arguments. -/
theorem result_array (c : Dev nD) : (dats m 0 c).arrAt 3 cfg0.N
    = signLinear (m ((c : Thread nD τ).loc main_arg0)) (m ((c : Thread nD τ).loc main_arg1)) (m ((c : Thread nD τ).loc main_arg2)) :=
  (dats m 0 c).arrAt_eq_of_cover 3 _ (fun t _ => flushed_tile m c t) tiles_cover

/-- The kernel's run: it terminates without a fault, the result array at `signLinear` of the arguments, the
    arguments unchanged. -/
theorem kernel_run : θ_run defs (onTc (τ := τ) (main (F := Ideal))) ⟨m, fun _ => 0, ρ⟩ fun r => ∀ c : Dev nD,
      r.2.mem ((c : Thread nD τ).loc main_v3)
        = signLinear (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.SignLinear

end
-- ==== Proof.lean ====
/-
  A dense layer with sign-binarized weights, tiled, against its plain formulation.

  The kernel stages `x` and `sign w` in a narrower float format, then on a 4 × 8 grid multiplies a 2048 × 4096 tile of
  `x` by a 512 × 4096 tile of the sign matrix (contracting the second axis of both, from a zero accumulator) and adds
  the tile's 512 bias entries to every row. The reference takes `sign w`, transposes it, forms the whole
  8192 × 4096 product and adds the bias along the rows. Read over the extended reals a change of float format keeps
  every value, so both compute

      out[r, n] = Σ_k x[r, k] · sign(w[n, k]) + bias[n]

  (`Cert.SignLinear.signLinear`, Proof/Spec.lean): the kernel tile by tile (Proof/Payload.lean, Proof/KernelPoint.lean,
  Proof/KernelValue.lean), the reference in one piece (Proof/RefValue.lean). The two sums have the same terms, so
  neither the finiteness of the inputs nor any law beyond `0 + s = s` is used.

  The frames of the two kernel programs and the runs they rest on are the generated ones; the reference's frame is
  its generated run with the result dropped. No operation was rewritten when the kernel was idealized, so there is
  nothing to preserve beyond the program's own text.
-/
import proofs.«100813_j9637906612611_2_alg».proof.Defs
import proofs.«100813_j9637906612611_2_alg».proof.Proof.Gen.Kernel
import proofs.«100813_j9637906612611_2_alg».proof.Proof.Gen.Kernel.Skeleton
import proofs.«100813_j9637906612611_2_alg».proof.Proof.Gen.Kernel.Launch
import proofs.«100813_j9637906612611_2_alg».proof.Proof.Gen.Kernel.Points
import proofs.«100813_j9637906612611_2_alg».proof.Proof.Gen.Kernel.Frame
import proofs.«100813_j9637906612611_2_alg».proof.Proof.Gen.KernelIdeal
import proofs.«100813_j9637906612611_2_alg».proof.Proof.Gen.KernelIdeal.Skeleton
import proofs.«100813_j9637906612611_2_alg».proof.Proof.Gen.KernelIdeal.Launch
import proofs.«100813_j9637906612611_2_alg».proof.Proof.Gen.KernelIdeal.Points
import proofs.«100813_j9637906612611_2_alg».proof.Proof.Gen.KernelIdeal.Frame
import proofs.«100813_j9637906612611_2_alg».proof.Proof.Gen.ReferenceIdeal
import proofs.«100813_j9637906612611_2_alg».proof.Proof.Gen.Pre_finite_inputs
import proofs.«100813_j9637906612611_2_alg».proof.Proof.Gen.KernelIdeal.Value
import proofs.«100813_j9637906612611_2_alg».proof.Proof.Gen.ReferenceIdeal.Run
import proofs.«100813_j9637906612611_2_alg».proof.Proof.Gen.ReferenceIdeal.Read
import proofs.«100813_j9637906612611_2_alg».proof.Proof.Spec
import proofs.«100813_j9637906612611_2_alg».proof.Proof.RefValue
import proofs.«100813_j9637906612611_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of six array operations: its run ends, and the arguments are never written. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on `x`, `w` and the bias, both programs end with the result array at `signLinear` of
    those arguments: the kernel by its tiles (`kernel_run`), the reference by reading its six operations at an index
    (`reference_eq`). -/
theorem algebraic : Cert.algebraic_KernelIdeal_ReferenceIdeal := by
  intro m ρ m' ρ' _ hagree
  refine ⟨fun c => Cert.SignLinear.signLinear (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.SignLinear.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.SignLinear.reference_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
